-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x16 : Shape := ⟨3, ![16, 1024, 16]⟩
abbrev S_ : Shape := ⟨0, ![]⟩

class Facts : Prop where
  bcast_S_S16x1024x16 : S_.BroadcastsInDim S16x1024x16 (![] : Fin 0 → Fin S16x1024x16.rank)
  reducesTo_S16x1024x16_S_d0_1_2 : S16x1024x16.ReducesTo [0, 1, 2] S_
  h_S_ : 0 < S_.numel

variable [Facts]

def fn {F : FTy → Type} [FloatOps F] (main_arg0 : FVec F S16x1024x16 .f32) : IVec S_ 1 :=
  let main_v0 : FVec F S16x1024x16 .f32 := Host.absf main_arg0
  let main_cst : FVec F S_ .f32 := constant S_ .f32 0x7F800000#32
  let main_v1 : FVec F S16x1024x16 .f32 := broadcastInDim S16x1024x16 ![] bcast_S_S16x1024x16 main_cst
  let main_v2 : IVec S16x1024x16 1 := cmpf .olt main_v0 main_v1
  let main_c : IVec S_ 1 := constantI S_ 1 1#1
  let main_v3 : IVec S_ 1 := (fun x v => Host.reduce IntOp.andi x v reducesTo_S16x1024x16_S_d0_1_2 h_S_) main_v2 main_c
  main_v3
-- ==== Kernel.lean ====
abbrev S16x1024x16 : Shape := ⟨3, ![16, 1024, 16]⟩
abbrev S16x16x1024 : Shape := ⟨3, ![16, 16, 1024]⟩
abbrev S256x1024 : Shape := ⟨2, ![256, 1024]⟩
abbrev S32x256 : Shape := ⟨2, ![32, 256]⟩
abbrev S32x1024 : Shape := ⟨2, ![32, 1024]⟩
abbrev S32x256x1 : Shape := ⟨3, ![32, 256, 1]⟩
abbrev S32x1x256 : Shape := ⟨3, ![32, 1, 256]⟩
abbrev S32x256x256 : Shape := ⟨3, ![32, 256, 256]⟩

abbrev nBuf : Space → Nat
  | .hbm => 6
  | .vmem => 6
  | .smem => 0
  | _ => 0

abbrev bufTy : (tb : Table) → Fin (tcTables nBuf tb) → BufTy
  | .hbm, ⟨0, _⟩ => ⟨S16x1024x16, .f32⟩
  | .hbm, ⟨1, _⟩ => ⟨S16x16x1024, .f32⟩
  | .hbm, ⟨2, _⟩ => ⟨S256x1024, .f32⟩
  | .hbm, ⟨3, _⟩ => ⟨S256x1024, .f32⟩
  | .hbm, ⟨4, _⟩ => ⟨S16x16x1024, .f32⟩
  | .hbm, ⟨5, _⟩ => ⟨S16x1024x16, .f32⟩
  | .local _ .vmem, ⟨0, _⟩ => ⟨S32x256, .f32⟩
  | .local _ .vmem, ⟨1, _⟩ => ⟨S32x256, .f32⟩
  | .local _ .vmem, ⟨2, _⟩ => ⟨S32x1024, .f32⟩
  | .local _ .vmem, ⟨3, _⟩ => ⟨S32x1024, .f32⟩
  | .local _ .vmem, ⟨4, _⟩ => ⟨S32x256, .f32⟩
  | .local _ .vmem, ⟨5, _⟩ => ⟨S32x256, .f32⟩
  | _, _ => ⟨S16x1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S32x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  transposes_S16x1024x16_S16x16x1024_0_2_1 : S16x1024x16.Transposes [0, 2, 1] S16x16x1024
  shapeCasts_S16x16x1024_S256x1024 : S16x16x1024.ShapeCasts S256x1024
  inb_S32x256_S32x256_0_0 : ∀ a, (![0, 0] : Fin 2 → Nat) a + S32x256.size a ≤ S32x256.size a
  h_S32x256 : 0 < S32x256.numel
  shapeCasts_S32x256_S32x256 : S32x256.ShapeCasts S32x256
  inb_S32x1024_S32x256_0_0 : ∀ a, (![0, 0] : Fin 2 → Nat) a + S32x256.size a ≤ S32x1024.size a
  shapeCasts_S32x256_S32x256x1 : S32x256.ShapeCasts S32x256x1
  shapeCasts_S32x256_S32x1x256 : S32x256.ShapeCasts S32x1x256
  broadcasts_S32x256x1_S32x256x256 : S32x256x1.Broadcasts S32x256x256
  broadcasts_S32x1x256_S32x256x256 : S32x1x256.Broadcasts S32x256x256
  reduces_S32x256x256_S32x256 : S32x256x256.Reduces [2] S32x256
  inb_S32x1024_S32x256_0_256 : ∀ a, (![0, 256] : Fin 2 → Nat) a + S32x256.size a ≤ S32x1024.size a
  inb_S32x1024_S32x256_0_512 : ∀ a, (![0, 512] : Fin 2 → Nat) a + S32x256.size a ≤ S32x1024.size a
  inb_S32x1024_S32x256_0_768 : ∀ a, (![0, 768] : Fin 2 → Nat) a + S32x256.size a ≤ S32x1024.size a
  shapeCasts_S256x1024_S16x16x1024 : S256x1024.ShapeCasts S16x16x1024
  transposes_S16x16x1024_S16x1024x16_0_2_1 : S16x16x1024.Transposes [0, 2, 1] S16x1024x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256.size a ≤ S256x1024.size a
  hwx0_0 : ∀ i : grid0.Coords, EltTy.bits .f32 = 32 ∨ (Rect.block (s := S256x1024) S32x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1024.size a ≤ S256x1024.size a
  hwx0_1 : ∀ i : grid0.Coords, EltTy.bits .f32 = 32 ∨ (Rect.block (s := S256x1024) S32x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x256.size a ≤ S256x1024.size a
  hwx0_2 : ∀ i : grid0.Coords, EltTy.bits .f32 = 32 ∨ (Rect.block (s := S256x1024) S32x256.size (cc0_transform_2 i) (hinb0_2 i)).WholeWords (EltTy.packing .f32)

variable [Facts₀]

abbrev win0_0 : Pipeline.Window sig grid0 :=
  Pipeline.Window.ofSpec (Memref.whole main_v1) S32x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S32x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x16 : Shape := ⟨3, ![16, 1024, 16]⟩
abbrev S16x1024x1x16 : Shape := ⟨4, ![16, 1024, 1, 16]⟩
abbrev S16x1x1024x16 : Shape := ⟨4, ![16, 1, 1024, 16]⟩
abbrev S16x1024x1024x16 : Shape := ⟨4, ![16, 1024, 1024, 16]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16x1024x16, .f32⟩
  | .hbm, ⟨1, _⟩ => ⟨S16x1024x1x16, .f32⟩
  | .hbm, ⟨2, _⟩ => ⟨S16x1x1024x16, .f32⟩
  | .hbm, ⟨3, _⟩ => ⟨S16x1024x1024x16, .f32⟩
  | .hbm, ⟨4, _⟩ => ⟨S16x1024x1024x16, .f32⟩
  | .hbm, ⟨5, _⟩ => ⟨S16x1024x1024x16, .f32⟩
  | .hbm, ⟨6, _⟩ => ⟨S_, .f32⟩
  | .hbm, ⟨7, _⟩ => ⟨S16x1024x1024x16, .f32⟩
  | .hbm, ⟨8, _⟩ => ⟨S16x1024x1024x16, .f32⟩
  | .hbm, ⟨9, _⟩ => ⟨S16x1024x1024x16, .f32⟩
  | .hbm, ⟨10, _⟩ => ⟨S16x1024x1024x16, .f32⟩
  | .hbm, ⟨11, _⟩ => ⟨S_, .f32⟩
  | .hbm, ⟨12, _⟩ => ⟨S16x1024x1024x16, .f32⟩
  | .hbm, ⟨13, _⟩ => ⟨S16x1024x1024x16, .f32⟩
  | .hbm, ⟨14, _⟩ => ⟨S_, .f32⟩
  | .hbm, ⟨15, _⟩ => ⟨S16x1024x1024x16, .f32⟩
  | .hbm, ⟨16, _⟩ => ⟨S16x1024x1024x16, .f32⟩
  | .hbm, ⟨17, _⟩ => ⟨S_, .f32⟩
  | .hbm, ⟨18, _⟩ => ⟨S16x1024x16, .f32⟩
  | .hbm, ⟨19, _⟩ => ⟨S_, .f32⟩
  | .hbm, ⟨20, _⟩ => ⟨S16x1024x16, .f32⟩
  | .hbm, ⟨21, _⟩ => ⟨S16x1024x16, .f32⟩
  | _, _ => ⟨S16x1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_cst_3 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S16x1024x16_S16x1024x1x16_0_1_3 : S16x1024x16.BroadcastsInDim S16x1024x1x16 (![0, 1, 3] : Fin 3 → Fin S16x1024x1x16.rank)
  bcast_S16x1024x16_S16x1x1024x16_0_2_3 : S16x1024x16.BroadcastsInDim S16x1x1024x16 (![0, 2, 3] : Fin 3 → Fin S16x1x1024x16.rank)
  bcast_S16x1024x1x16_S16x1024x1024x16_0_1_2_3 : S16x1024x1x16.BroadcastsInDim S16x1024x1024x16 (![0, 1, 2, 3] : Fin 4 → Fin S16x1024x1024x16.rank)
  bcast_S16x1x1024x16_S16x1024x1024x16_0_1_2_3 : S16x1x1024x16.BroadcastsInDim S16x1024x1024x16 (![0, 1, 2, 3] : Fin 4 → Fin S16x1024x1024x16.rank)
  bcast_S_S16x1024x1024x16 : S_.BroadcastsInDim S16x1024x1024x16 (![] : Fin 0 → Fin S16x1024x1024x16.rank)
  reducesTo_S16x1024x1024x16_S16x1024x16_d2 : S16x1024x1024x16.ReducesTo [2] S16x1024x16
  h_S_ : 0 < S_.numel
  bcast_S_S16x1024x16 : S_.BroadcastsInDim S16x1024x16 (![] : Fin 0 → Fin S16x1024x16.rank)

variable [Facts₀]

class Facts : Prop extends Facts₀ where

variable [Facts]
-- ==== Proof.LibSharedArrayTail.lean ====
/-
  The frame run of ONE kernel region whose windows may SHARE an array, for an @main that goes on AFTER the region
  with straight lines of host operations (a reshape, a transposition of the kernel's result into fresh buffers).

  A pallas_call handed one array through several `in_specs` holds that array split between the windows, each at its
  own share, so the windows' arrays are not pairwise distinct and the library's frame run around a region (which holds
  every array whole at the full share) does not apply. Here the caller says how the DISTINCT buffers behind the arrays,
  each whole at the full share, make up the proof data's `arrays` at the region's entry (`hsplit`), how the proof
  data's `arrays` at the region's exit give those buffers back whole at contents `Wfin` (`hjoin`), and how they
  split again (`hback`). The lines after the region then run within the array buffers, which they may read and do
  not write, and the buffers that bypass the region, which they may read and write. The conclusion names every array
  at the proof data's `arrAt w N` and every other unscoped buffer at the lines' `StableHlo.after` from the exit
  contents `Wfin`.

  General in the program, its configuration, the value type, the invariant and the lines.
-/
import Idealize.ShloMosaic.Lib.Pipeline.FrameSuffix

noncomputable section

namespace Cert.SharedArrayTail

open Idealize.ShloMosaic Idealize.ShloMosaic.Pipeline
open Idealize.SL
open Idealize.SL.BI (sProp bigSep bigSep_map bigSep_union bigSep_congr)
open scoped Idealize.SL.BI
open Idealize.SL.BI.BIBase Idealize.SL.BI.Laws Idealize.SL.Sem Idealize.SL.ProofMode
open Idealize.SL.RA
open Idealize.ShloMosaic.Rounds
open TcCoe

set_option Elab.async false

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

omit [Fintype P] [DecidableEq P] [∀ e, Nonempty (Val e)] in
/-- The buffers a line after the region may touch, held whole at `Wv`: the distinct buffers behind the windows'
    arrays and the buffers that bypass the region. No distinctness of the windows' arrays is asked. -/
theorem held_tailRefs_shared {gr : Nat} {W : Nat} (win : Fin W → WinSpec sig gr) (c : Dev nD) (Wv : Valuation τ sig Val) :
    (StableHlo.held (c.tc : Thread nD τ) (tailRefs sig Prefetch.none win) Wv : sProp 𝕄)
      = iprop(arrBufs win c (fun b => Wv (Proc.devRef .tc b)) ∗ unscopedRest win c (fun b => Wv (Proc.devRef .tc b))) := by
  classical
  have hdisj : Disjoint (Finset.univ.image (arrRef win)) (restRefsP sig Prefetch.none win) :=
    Finset.disjoint_left.mpr fun b hb hr => (Finset.mem_sdiff.mp (Finset.mem_sdiff.mp hr).1).2 hb
  unfold StableHlo.held tailRefs arrBufs
  rw [bigSep_map, bigSep_union hdisj, ← unscopedRestP_none]
  rfl

omit [Fintype P] [DecidableEq P] [∀ e, Nonempty (Val e)] in
/-- THE LINES AFTER THE REGION, from the array buffers whole at `Wv` and the bypassing buffers at `Wv`: they run
    within those buffers (`hsub`), write no array buffer (`hkeep`), and hand back the array buffers as they were and
    the bypassing buffers at `StableHlo.after` of the lines. -/
theorem tail_seqs_shared (pcs : P → PCfg sig Λ₀ Val) (defs₀ : Defs nD τ sig Val Λ₀) (𝒱₀ : Variants)
    {gr : Nat} {W : Nat} (win : Fin W → WinSpec sig gr) (c : Dev nD) (Wv : Valuation τ sig Val)
    (opss : List (List (HloOp τ sig Val)))
    (hsub : ∀ ops ∈ opss, ∀ op ∈ ops, op.bufs ⊆ tailRefs sig Prefetch.none win)
    (hfresh : ∀ ops ∈ opss, ∀ op ∈ ops, op.fresh = ∅)
    (hkeep : ∀ ops ∈ opss, ∀ op ∈ ops, ∀ w, Proc.devRef .tc (arrRef win w) ∉ op.writes)
    (Q' : PUnit → sProp 𝕄) :
    iprop((iprop(arrBufs win c (fun b => Wv (Proc.devRef .tc b))
              ∗ unscopedRest win c (fun b => StableHlo.after opss.flatten Wv (Proc.devRef .tc b))) -∗ Q' ⟨⟩)
        ∗ boundary (c.tc : Thread nD τ) ∗ arrBufs win c (fun b => Wv (Proc.devRef .tc b))
        ∗ unscopedRest win c (fun b => Wv (Proc.devRef .tc b)))
      ⊢ wp frame (wpE (Pipeline.defs pcs defs₀) (Variants.lift 𝒱₀) (c.tc : Thread nD τ) none) Set.univ (chain (opss.map StableHlo.seq)) Q' := by
  classical
  have hW' : (StableHlo.held (c.tc : Thread nD τ) (tailRefs sig Prefetch.none win) (StableHlo.after opss.flatten Wv) : sProp 𝕄)
      = iprop(arrBufs win c (fun b => Wv (Proc.devRef .tc b))
          ∗ unscopedRest win c (fun b => StableHlo.after opss.flatten Wv (Proc.devRef .tc b))) := by
    rw [held_tailRefs_shared]
    congr 1
    unfold arrBufs
    exact bigSep_congr fun b hb => by
      obtain ⟨w, -, rfl⟩ := Finset.mem_image.mp hb
      dsimp only
      rw [StableHlo.after_of_forall_not_mem _ _ fun op hop => ?_]
      obtain ⟨ops, hops, hop⟩ := List.mem_flatten.mp hop
      exact hkeep ops hops op hop w
  rw [← List.append_nil (opss.map StableHlo.seq), ← held_tailRefs_shared]
  iintro ⟨Hk, Hb⟩
  iapply (wp_seqs_then pcs defs₀ 𝒱₀ c (tailRefs sig Prefetch.none win) [] opss hsub hfresh Wv) $$ Hb
  iintro Hb
  rw [chain_nil, wp_pure, hW']
  imodintro
  iapply Hk
  icases Hb with ⟨-, H⟩
  iexact H

/-- THE FRAME RUN with a tracking invariant, around a region whose windows may share arrays (`WinFacts₀`): from the
    body obligation, @main's shape (host lines, the region, the host lines `opss`: `hmain`), the split of the array
    buffers among the windows at the entry (`hsplit`), their joining at the exit at contents `Wfin` (`hjoin`, which
    agree with the entry contents on the bypassing buffers, `hrest`) and splitting again (`hback`), and an invariant
    entered from the kernel's scoped scratch buffers and giving them back, every weakly fair execution of @main
    terminates with every window's array at the proof data's `arrAt w N` and every other unscoped buffer at the
    lines' `StableHlo.after` from `Wfin`. The kernel may use no semaphore of its own and not the generator register. -/
theorem θ_run_frame_around_track_shared
    (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V₀ Wfin : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hrest : ∀ c, ∀ b ∈ restRefs sig (cfgs p).spec, Wfin c (Proc.devRef .tc b) = V₀ c (Proc.devRef .tc b))
    (hsplit : ∀ c, (arrBufs (cfgs p).spec c (fun b => V₀ c (Proc.devRef .tc b)) : sProp 𝕄) ⊢ (dats p c).arrays ((dats p c).arrAt · 0))
    (hjoin : ∀ c, (dats p c).arrays ((dats p c).arrAt · (cfgs p).N) ⊢ (arrBufs (cfgs p).spec c (fun b => Wfin c (Proc.devRef .tc b)) : sProp 𝕄))
    (hback : ∀ c, (arrBufs (cfgs p).spec c (fun b => Wfin c (Proc.devRef .tc b)) : sProp 𝕄) ⊢ (dats p c).arrays ((dats p c).arrAt · (cfgs p).N))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g)
      (fun r => ∀ c : Dev nD,
        (∀ w, r.2.mem (((cfgs p).spec w).arr.view.loc (c.tc : Thread nD τ)) = (dats p c).arrAt w (cfgs p).N)
        ∧ ∀ b ∈ restRefs sig (cfgs p).spec,
            r.2.mem ((c.tc : Thread nD τ).loc b) = StableHlo.after opss.flatten (Wfin c) (Proc.devRef .tc b)) := by
  classical
  have hZ : ∀ c, (unscopedRest (cfgs p).spec c (fun b => V₀ c (Proc.devRef .tc b)) : sProp 𝕄)
      = unscopedRest (cfgs p).spec c (fun b => Wfin c (Proc.devRef .tc b)) := fun c => by
    unfold unscopedRest
    exact bigSep_congr fun b hb => by dsimp only; rw [hrest c b hb]
  exact θ_run_region_noSem_pf_tail (fun p => (cfgs p).toPCfg) (fun p => (cfgs p).toPCfg_adm) dats () hinj p hw (PreFacts.none _) emb₁ defs₀ 𝒱₀
    m g main (fun _ => chain (opss.map StableHlo.seq)) hbody hne harr hstage howed
    (u₀ := initOf (cells cfgs hinj) (launchToks cfgs hinj)) (hu₀ := .rfl)
    (V := fun c b => V₀ c (Proc.devRef .tc b)) (hmain := hmain) (hsplit := hsplit) (hpf := fun _ k => k.elim0)
    (X := fun _ => iprop(emp)) (Y := fun _ => iprop(emp))
    (Z := fun c => unscopedRest (Ix := Unit) (Name := ℕ) (U := UR sig nD τ) (Lvl := ℕ) (cfgs p).spec c (fun b => V₀ c (Proc.devRef .tc b)))
    (Z' := fun c => unscopedRest (Ix := Unit) (Name := ℕ) (U := UR sig nD τ) (Lvl := ℕ) (cfgs p).spec c
      (fun b => StableHlo.after opss.flatten (Wfin c) (Proc.devRef .tc b)))
    (hX := fun c => by
      rw [unscopedRestP_none]
      iintro H
      isplitr; · iempintro
      iexact H)
    (hin := fun c => (show _ ⊢ (scopedRest (cfgs p).spec c : sProp 𝕄) from by iintro ⟨-, -, H⟩; iexact H).trans (hin c))
    (hout := fun c => (hout c).trans (by
      iintro H
      isplitr; · iempintro
      iexact H))
    (htail := fun c Q' => by
      rw [hZ c]
      iintro ⟨Hk, Hbd, Harr, HZ⟩
      iapply (tail_seqs_shared (fun q => (cfgs q).toPCfg (Val := Val)) defs₀ 𝒱₀ (cfgs p).spec c (Wfin c) opss hsub hfresh hkeep Q')
      isplitl [Hk]
      · iintro ⟨Ha, Hz⟩
        iapply Hk
        isplitl [Ha]
        · iapply (hback c); iexact Ha
        · iexact Hz
      isplitl [Hbd]; · iexact Hbd
      isplitl [Harr]
      · iapply (hjoin c); iexact Harr
      · iexact HZ)
    (QY := fun c s => ∀ b ∈ restRefs sig (cfgs p).spec,
      s.mem ((c.tc : Thread nD τ).loc b) = StableHlo.after opss.flatten (Wfin c) (Proc.devRef .tc b))
    (hY := fun c s' => by
      iintro ⟨-, HU, HSI⟩
      unfold unscopedRest
      imodintro
      iapply (pointsTo_read_all (restRefs sig (cfgs p).spec) (fun b => (c.tc : Thread nD τ).loc b)
        (fun b => StableHlo.after opss.flatten (Wfin c) (Proc.devRef .tc b)) s')
      isplitl [HU] <;> iassumption)
    (hQ := fun s h c => ⟨(h c).1, (h c).2.2⟩)

end Cert.SharedArrayTail

end
-- ==== Proof.KernelRegion.lean ====
/-
  The run of the kernel's @main, with every buffer's final contents named.

  @main is two host lines (a transposition and a reshape of the argument into the row matrix `main_v1` : [256, 1024]),
  one kernel region over a grid of 8 x 4 points, and two host lines (the reshape and transposition back of the region's
  result `main_v2`). The region has three windows: the QUERY block [32, 256] of `main_v1` at block index (i, j), the
  KEY block [32, 1024] of the SAME array `main_v1` at block index (i, 0), and the result block [32, 256] of `main_v2`
  at block index (i, j). The two input windows share one array, so it is held split between them, half the share
  each, joined again at the region's exit.

  The body loads the query block whole and the key block in four column chunks, computes, loads the result buffer
  (the value is not used) and stores the whole result block: what it leaves in the result buffer is one function
  (`resultBlock`) of the two input blocks, and the input buffers stay as found. With that the frame run around a
  region with shared arrays gives every array and every bypassing buffer at the end.

  Stated at any float instance: the same text serves the idealized program.
-/
import proofs.«107972_j63101659513440_2_alg».proof.Proof.Gen.Kernel.Launch
import proofs.«107972_j63101659513440_2_alg».proof.Proof.Gen.Kernel.Skeleton
import proofs.«107972_j63101659513440_2_alg».proof.Proof.Gen.Kernel.Points
import proofs.«107972_j63101659513440_2_alg».proof.Proof.LibSharedArrayTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the two host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped buffers of the TensorCore. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write neither `main_v1` nor `main_v2`. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, StableHlo.reshape_writes, Finset.mem_singleton] <;> exact StableHlo.devRef_ne_of_ne (by decide)

/-- No host line before the region writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point. -/
theorem before_query_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's buffer holds its block at every point, fetched there or not: its block index moves only with the
    first grid coordinate, and the body leaves the block in place. -/
theorem before_key_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole [32, 256] block (the query load, the result's load and store). -/
abbrev rq : Rect S32x256 := Rect.unit (s := S32x256) ![0, 0] S32x256.size inb_S32x256_S32x256_0_0
/-- The four column chunks of the key block [32, 1024]. -/
abbrev rk0 : Rect S32x1024 := Rect.unit (s := S32x1024) ![0, 0] S32x256.size inb_S32x1024_S32x256_0_0
abbrev rk1 : Rect S32x1024 := Rect.unit (s := S32x1024) ![0, 256] S32x256.size inb_S32x1024_S32x256_0_256
abbrev rk2 : Rect S32x1024 := Rect.unit (s := S32x1024) ![0, 512] S32x256.size inb_S32x1024_S32x256_0_512
abbrev rk3 : Rect S32x1024 := Rect.unit (s := S32x1024) ![0, 768] S32x256.size inb_S32x1024_S32x256_0_768

/-! ## What the body leaves in the result window's buffer -/

/-- The result block as a function of the query block `x0` and the key block `x1`: the one store's payload, over
    the query block and the four key chunks. -/
def resultBlock (x0 : Vec F S32x256 .f32) (x1 : Vec F S32x1024 .f32) : Vec F S32x256 .f32 :=
  View.canon [⟨rq, k0_pay1 (k0_pay2 (View.ld x0 rq)) (k0_pay3 (View.ld x0 rq) (View.ld x1 rk0) (View.ld x1 rk1) (View.ld x1 rk2)) (k0_pay4 (View.ld x1 rk3))⟩]

/-- The one store covers the buffer. -/
theorem result_cover (p0 : Vec F S32x256 .f32) (y : S32x256.Idx) :
    ∃ pc ∈ ([⟨rq, p0⟩] : List (View.Piece (Elt F) S32x256 .f32)), y ∈ pc.1.set :=
  View.cover_of_tiled [⟨rq, p0⟩] S32x256.size (by rfl) y

/-! ## The body's triple -/

set_option maxHeartbeats 1000000 in
/-- The kernel body on whole staging memrefs — the inputs' at read contents `x0`, `x1`, the result's at anything —
    runs to the continuation holding the inputs' as they were and the result's at `resultBlock x0 x1`. -/
theorem sound_kernel (c : Dev nD) (E : Set ℕ) (i : grid0.Coords) (arg2 : Memref sig .tc .vmem S32x256 .f32) (harg2 : arg2.IsWhole)
    (arg3 : Memref sig .tc .vmem S32x1024 .f32) (harg3 : arg3.IsWhole) (arg4 : Memref sig .tc .vmem S32x256 .f32) (harg4 : arg4.IsWhole)
    (x0 : Vec F S32x256 .f32) (x1 : Vec F S32x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (resultBlock x0 x1)) -∗ K ⟨⟩))
      ⊢ wp frame (wpE (defs₀ (F := F)) Variants.none c none) E (cc0__softrank_kernel i arg2 harg2 arg3 harg3 arg4 harg4) K := by
  simp only [cc0__softrank_kernel_eq_skeleton]; unfold cc0__softrank_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (result_cover _)

/-! ## The pipeline's proof data -/

/-- The proof data of the pipeline on core `c`: the arrays as the region finds them; after the body at point `t` each
    input's buffer at its block and the result's at `resultBlock` of the two input blocks; the invariant the scoped
    buffers no window stages; nothing owed; the shared array `main_v1` held half by the query window and half by the
    key window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => resultBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats]
theorem after_key (c : Dev nD) (t : Fin cfg0.N) : (dats m 0 c).after 1 t = iblk m c 1 t := by dsimp only [dats]
theorem after_result (c : Dev nD) (t : Fin cfg0.N) : (dats m 0 c).after 2 t = resultBlock (iblk m c 0 t) (iblk m c 1 t) := by dsimp only [dats]

theorem before_query (c : Dev nD) (t : Fin cfg0.N) (d) : (dats m 0 c).before 0 t d = iblk m c 0 t :=
  before_query_of m (dats m 0 c) (A_eq m c 0) (after_query m c) t d
theorem before_key (c : Dev nD) (t : Fin cfg0.N) (d) : (dats m 0 c).before 1 t d = iblk m c 1 t :=
  before_key_of m (dats m 0 c) (A_eq m c 1) (after_key m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_key]
  rw [show (dats m 0 c).Φ t.succ = (dats m 0 c).Φ t.castSucc from rfl,
    show (dats m 0 c).owesAt () t.succ = (dats m 0 c).owesAt () t.castSucc from rfl,
    after_query, after_key, after_result]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The shared array split between the two input windows, and joined again -/

/-- The distinct buffers behind the windows' arrays are `main_v1` and `main_v2`. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v2) ↦{fullShare} Vv main_v2)) := by
  unfold Pipeline.arrBufs
  exact bigSep_eq_bigSepL_of_eq [main_v1, main_v2] (by decide) (by decide) _

/-- The proof data's arrays: `main_v1` at the left half share for the query window and at the right half for the key
    window, `main_v2` whole for the result window. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0, (arr_whole0 0).set_eq_univ, (arr_whole0 2).set_eq_univ]
  rfl

/-- The buffers' contents when the region is left: `main_v2` at what the write-backs made of it, every other buffer
    as the region found it. -/
def Wfin (c : Dev nD) : Valuation τ sig (Elt F) :=
  Function.update (V0 m c) (Proc.devRef .tc main_v2) ((dats m 0 c).arrAt 2 cfg0.N)

theorem Wfin_main_v2 (c : Dev nD) : Wfin m c (Proc.devRef .tc main_v2) = (dats m 0 c).arrAt 2 cfg0.N := by
  unfold Wfin; exact Function.update_self ..

theorem Wfin_of_ne (c : Dev nD) (b : Ref sig .tc) (hb : b ≠ main_v2) : Wfin m c (Proc.devRef .tc b) = V0 m c (Proc.devRef .tc b) := by
  unfold Wfin; exact Function.update_of_ne (fun e => hb (Proc.devRef_injective _ e)) ..

/-- At the entry: `main_v1` whole splits into its two halves, one per input window. -/
theorem split_entry (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_eq, arrays_eq]
  iintro ⟨H1, H2⟩
  ihave Hs := (pointsTo_share (PosShare.mem_left_op_right fullShare)).1 $$ H1
  icases Hs with ⟨Hl, Hr⟩
  isplitl [Hl]; · iexact Hl
  isplitl [Hr]; · iexact Hr
  iexact H2

/-- At the exit: the two halves of `main_v1`, unchanged (an input array is never written), join; `main_v2` is whole. -/
theorem join_exit (c : Dev nD) :
    (dats m 0 c).arrays ((dats m 0 c).arrAt · cfg0.N)
      ⊢ (Pipeline.arrBufs (Ix := Unit) (Name := ℕ) (U := UR sig nD τ) (Lvl := ℕ) spec0 c (fun b => Wfin m c (Proc.devRef .tc b)) : sProp 𝕄) := by
  rw [arrBufs_eq, arrays_eq, (dats m 0 c).arrAt_in 0 rfl _, (dats m 0 c).arrAt_in 1 rfl _, Wfin_main_v2,
    Wfin_of_ne m c main_v1 (by decide)]
  iintro ⟨Hl, Hr, H2⟩
  isplitl [Hl Hr]
  · iapply (pointsTo_share (PosShare.mem_left_op_right fullShare)).2
    isplitl [Hl]; · iexact Hl
    iexact Hr
  iexact H2

/-- And they split again. -/
theorem split_exit (c : Dev nD) :
    (Pipeline.arrBufs (Ix := Unit) (Name := ℕ) (U := UR sig nD τ) (Lvl := ℕ) spec0 c (fun b => Wfin m c (Proc.devRef .tc b)) : sProp 𝕄)
      ⊢ (dats m 0 c).arrays ((dats m 0 c).arrAt · cfg0.N) := by
  rw [arrBufs_eq, arrays_eq, (dats m 0 c).arrAt_in 0 rfl _, (dats m 0 c).arrAt_in 1 rfl _, Wfin_main_v2,
    Wfin_of_ne m c main_v1 (by decide)]
  iintro ⟨H1, H2⟩
  ihave Hs := (pointsTo_share (PosShare.mem_left_op_right fullShare)).1 $$ H1
  icases Hs with ⟨Hl, Hr⟩
  isplitl [Hl]; · iexact Hl
  isplitl [Hr]; · iexact Hr
  iexact H2

/-- A buffer that bypasses the region is as the region found it. -/
theorem Wfin_rest (c : Dev nD) : ∀ b ∈ Pipeline.restRefs sig spec0, Wfin m c (Proc.devRef .tc b) = V0 m c (Proc.devRef .tc b) := by
  intro b hb
  refine Wfin_of_ne m c b fun e => ?_
  subst e
  exact (Finset.mem_sdiff.mp hb).2 (Finset.mem_image.mpr ⟨2, Finset.mem_univ _, rfl⟩)

/-! ## The run -/

set_option backward.isDefEq.respectTransparency.types false in
/-- Every weakly fair execution of @main terminates; at the end every window's array holds what the library computes
    from the proof data, and every other unscoped buffer what the two lines after the region make of the exit
    contents. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0,
          r.2.mem ((c.tc : Thread nD τ).loc b) = StableHlo.after (List.flatten [hostOps1]) (Wfin m c) (Proc.devRef .tc b)) :=
  Cert.SharedArrayTail.θ_run_frame_around_track_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (Wfin := Wfin m) (opss := [hostOps1]) (hsub := tail_sub) (hfresh := tail_fresh) (hkeep := tail_keeps)
    (hmain := hmain m Variants.none) (hrest := Wfin_rest m)
    (hsplit := split_entry m) (hjoin := join_exit m) (hback := split_exit m)
    (hin := fun _ => .rfl) (hout := fun _ => .rfl)

/-- No line after the region writes the argument: it ends as launched. -/
theorem W_main_arg0 (c : Dev nD) :
    StableHlo.after (List.flatten [hostOps1]) (Wfin m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Wfin_of_ne m c main_arg0 (by decide)]
  exact V_main_arg0 m c

/-- THE FRAME: every weakly fair execution of @main terminates, and the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (W_main_arg0 m c))
    (run_main m ρ)

/-- The run with the result named: the final result is what the two lines after the region make of the exit contents,
    and the argument ends as launched. -/
theorem run_result : θ_run defs (onTc (τ := τ) (main (F := F))) ⟨m, fun _ => 0, ρ⟩ (fun r => ∀ c : Dev nD,
      r.2.mem ((c.tc : Thread nD τ).loc main_v4) = StableHlo.after (List.flatten [hostOps1]) (Wfin m c) (Proc.devRef .tc main_v4)
      ∧ r.2.mem ((c.tc : Thread nD τ).loc main_arg0) = m ((c.tc : Thread nD τ).loc main_arg0)) :=
  (θ_run defs _ _).mono (fun _ h c => ⟨(h c).2 main_v4 (Pipeline.mem_restRefs_of main_v4 (by decide) (by decide)),
      ((h c).2 main_arg0 (Pipeline.mem_restRefs_of main_arg0 (by decide) (by decide))).trans (W_main_arg0 m c)⟩)
    (run_main m ρ)

end Cert.Kernel.Region

end
-- ==== Proof.KernelIdealRegion.lean ====
/-
  The run of the idealized kernel's @main, with every buffer's final contents named.

  @main is two host lines (a transposition and a reshape of the argument into the row matrix `main_v1` : [256, 1024]),
  one kernel region over a grid of 8 x 4 points, and two host lines (the reshape and transposition back of the region's
  result `main_v2`). The region has three windows: the QUERY block [32, 256] of `main_v1` at block index (i, j), the
  KEY block [32, 1024] of the SAME array `main_v1` at block index (i, 0), and the result block [32, 256] of `main_v2`
  at block index (i, j). The two input windows share one array, so it is held split between them, half the share
  each, joined again at the region's exit.

  The body loads the query block whole and the key block in four column chunks, computes, loads the result buffer
  (the value is not used) and stores the whole result block: what it leaves in the result buffer is one function
  (`resultBlock`) of the two input blocks, and the input buffers stay as found. With that the frame run around a
  region with shared arrays gives every array and every bypassing buffer at the end.

  Stated at any float instance: the same text serves the word-level program.
-/
import proofs.«107972_j63101659513440_2_alg».proof.Proof.Gen.KernelIdeal.Launch
import proofs.«107972_j63101659513440_2_alg».proof.Proof.Gen.KernelIdeal.Skeleton
import proofs.«107972_j63101659513440_2_alg».proof.Proof.Gen.KernelIdeal.Points
import proofs.«107972_j63101659513440_2_alg».proof.Proof.LibSharedArrayTail
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Region

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: after the two host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only unscoped buffers of the TensorCore. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 winFacts₀0.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write neither `main_v1` nor `main_v2`. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.unary_writes, StableHlo.reshape_writes, Finset.mem_singleton] <;> exact StableHlo.devRef_ne_of_ne (by decide)

/-- No host line before the region writes the argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.unary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The query window's buffer holds its block at every point. -/
theorem before_query_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The key window's buffer holds its block at every point, fetched there or not: its block index moves only with the
    first grid coordinate, and the body leaves the block in place. -/
theorem before_key_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- The whole [32, 256] block (the query load, the result's load and store). -/
abbrev rq : Rect S32x256 := Rect.unit (s := S32x256) ![0, 0] S32x256.size inb_S32x256_S32x256_0_0
/-- The four column chunks of the key block [32, 1024]. -/
abbrev rk0 : Rect S32x1024 := Rect.unit (s := S32x1024) ![0, 0] S32x256.size inb_S32x1024_S32x256_0_0
abbrev rk1 : Rect S32x1024 := Rect.unit (s := S32x1024) ![0, 256] S32x256.size inb_S32x1024_S32x256_0_256
abbrev rk2 : Rect S32x1024 := Rect.unit (s := S32x1024) ![0, 512] S32x256.size inb_S32x1024_S32x256_0_512
abbrev rk3 : Rect S32x1024 := Rect.unit (s := S32x1024) ![0, 768] S32x256.size inb_S32x1024_S32x256_0_768

/-! ## What the body leaves in the result window's buffer -/

/-- The result block as a function of the query block `x0` and the key block `x1`: the one store's payload, over
    the query block and the four key chunks. -/
def resultBlock (x0 : Vec F S32x256 .f32) (x1 : Vec F S32x1024 .f32) : Vec F S32x256 .f32 :=
  View.canon [⟨rq, k0_pay1 (k0_pay2 (View.ld x0 rq)) (k0_pay3 (View.ld x0 rq) (View.ld x1 rk0) (View.ld x1 rk1) (View.ld x1 rk2)) (k0_pay4 (View.ld x1 rk3))⟩]

/-- The one store covers the buffer. -/
theorem result_cover (p0 : Vec F S32x256 .f32) (y : S32x256.Idx) :
    ∃ pc ∈ ([⟨rq, p0⟩] : List (View.Piece (Elt F) S32x256 .f32)), y ∈ pc.1.set :=
  View.cover_of_tiled [⟨rq, p0⟩] S32x256.size (by rfl) y

/-! ## The body's triple -/

set_option maxHeartbeats 1000000 in
/-- The kernel body on whole staging memrefs — the inputs' at read contents `x0`, `x1`, the result's at anything —
    runs to the continuation holding the inputs' as they were and the result's at `resultBlock x0 x1`. -/
theorem sound_kernel (c : Dev nD) (E : Set ℕ) (i : grid0.Coords) (arg2 : Memref sig .tc .vmem S32x256 .f32) (harg2 : arg2.IsWhole)
    (arg3 : Memref sig .tc .vmem S32x1024 .f32) (harg3 : arg3.IsWhole) (arg4 : Memref sig .tc .vmem S32x256 .f32) (harg4 : arg4.IsWhole)
    (x0 : Vec F S32x256 .f32) (x1 : Vec F S32x1024 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (resultBlock x0 x1)) -∗ K ⟨⟩))
      ⊢ wp frame (wpE (defs₀ (F := F)) Variants.none c none) E (cc0__softrank_kernel i arg2 harg2 arg3 harg3 arg4 harg4) K := by
  simp only [cc0__softrank_kernel_eq_skeleton]; unfold cc0__softrank_kernel_skel
  simp only [k0_part1_eq_skeleton]; unfold k0_part1_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (result_cover _)

/-! ## The pipeline's proof data -/

/-- The proof data of the pipeline on core `c`: the arrays as the region finds them; after the body at point `t` each
    input's buffer at its block and the result's at `resultBlock` of the two input blocks; the invariant the scoped
    buffers no window stages; nothing owed; the shared array `main_v1` held half by the query window and half by the
    key window. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => resultBlock (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_query (c : Dev nD) (t : Fin cfg0.N) : (dats m 0 c).after 0 t = iblk m c 0 t := by dsimp only [dats]
theorem after_key (c : Dev nD) (t : Fin cfg0.N) : (dats m 0 c).after 1 t = iblk m c 1 t := by dsimp only [dats]
theorem after_result (c : Dev nD) (t : Fin cfg0.N) : (dats m 0 c).after 2 t = resultBlock (iblk m c 0 t) (iblk m c 1 t) := by dsimp only [dats]

theorem before_query (c : Dev nD) (t : Fin cfg0.N) (d) : (dats m 0 c).before 0 t d = iblk m c 0 t :=
  before_query_of m (dats m 0 c) (A_eq m c 0) (after_query m c) t d
theorem before_key (c : Dev nD) (t : Fin cfg0.N) (d) : (dats m 0 c).before 1 t d = iblk m c 1 t :=
  before_key_of m (dats m 0 c) (A_eq m c 1) (after_key m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_query, before_key]
  rw [show (dats m 0 c).Φ t.succ = (dats m 0 c).Φ t.castSucc from rfl,
    show (dats m 0 c).owesAt () t.succ = (dats m 0 c).owesAt () t.castSucc from rfl,
    after_query, after_key, after_result]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The shared array split between the two input windows, and joined again -/

/-- The distinct buffers behind the windows' arrays are `main_v1` and `main_v2`. -/
theorem arrBufs_eq (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_v1) ↦{fullShare} Vv main_v1) ∗ (((c : Thread nD τ).loc main_v2) ↦{fullShare} Vv main_v2)) := by
  unfold Pipeline.arrBufs
  exact bigSep_eq_bigSepL_of_eq [main_v1, main_v2] (by decide) (by decide) _

/-- The proof data's arrays: `main_v1` at the left half share for the query window and at the right half for the key
    window, `main_v2` whole for the result window. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_v1) ↦{fullShare.left} G 0) ∗ (((c : Thread nD τ).loc main_v1) ↦{fullShare.right} G 1)
          ∗ (((c : Thread nD τ).loc main_v2) ↦{fullShare} G 2)) := by
  unfold Dat.arrays
  rw [bigSep_W0, (arr_whole0 0).set_eq_univ, (arr_whole0 2).set_eq_univ]
  rfl

/-- The buffers' contents when the region is left: `main_v2` at what the write-backs made of it, every other buffer
    as the region found it. -/
def Wfin (c : Dev nD) : Valuation τ sig (Elt F) :=
  Function.update (V0 m c) (Proc.devRef .tc main_v2) ((dats m 0 c).arrAt 2 cfg0.N)

theorem Wfin_main_v2 (c : Dev nD) : Wfin m c (Proc.devRef .tc main_v2) = (dats m 0 c).arrAt 2 cfg0.N := by
  unfold Wfin; exact Function.update_self ..

theorem Wfin_of_ne (c : Dev nD) (b : Ref sig .tc) (hb : b ≠ main_v2) : Wfin m c (Proc.devRef .tc b) = V0 m c (Proc.devRef .tc b) := by
  unfold Wfin; exact Function.update_of_ne (fun e => hb (Proc.devRef_injective _ e)) ..

/-- At the entry: `main_v1` whole splits into its two halves, one per input window. -/
theorem split_entry (c : Dev nD) :
    (Pipeline.arrBufs (Ix := Unit) (Name := ℕ) (U := UR sig nD τ) (Lvl := ℕ) spec0 c (fun b => V0 m c (Proc.devRef .tc b)) : sProp 𝕄)
      ⊢ (dats m 0 c).arrays ((dats m 0 c).arrAt · 0) := by
  rw [arrBufs_eq, arrays_eq]
  iintro ⟨H1, H2⟩
  ihave Hs := (pointsTo_share (PosShare.mem_left_op_right fullShare)).1 $$ H1
  icases Hs with ⟨Hl, Hr⟩
  isplitl [Hl]; · iexact Hl
  isplitl [Hr]; · iexact Hr
  iexact H2

/-- At the exit: the two halves of `main_v1`, unchanged (an input array is never written), join; `main_v2` is whole. -/
theorem join_exit (c : Dev nD) :
    (dats m 0 c).arrays ((dats m 0 c).arrAt · cfg0.N)
      ⊢ (Pipeline.arrBufs (Ix := Unit) (Name := ℕ) (U := UR sig nD τ) (Lvl := ℕ) spec0 c (fun b => Wfin m c (Proc.devRef .tc b)) : sProp 𝕄) := by
  rw [arrBufs_eq, arrays_eq, (dats m 0 c).arrAt_in 0 rfl _, (dats m 0 c).arrAt_in 1 rfl _, Wfin_main_v2,
    Wfin_of_ne m c main_v1 (by decide)]
  iintro ⟨Hl, Hr, H2⟩
  isplitl [Hl Hr]
  · iapply (pointsTo_share (PosShare.mem_left_op_right fullShare)).2
    isplitl [Hl]; · iexact Hl
    iexact Hr
  iexact H2

/-- And they split again. -/
theorem split_exit (c : Dev nD) :
    (Pipeline.arrBufs (Ix := Unit) (Name := ℕ) (U := UR sig nD τ) (Lvl := ℕ) spec0 c (fun b => Wfin m c (Proc.devRef .tc b)) : sProp 𝕄)
      ⊢ (dats m 0 c).arrays ((dats m 0 c).arrAt · cfg0.N) := by
  rw [arrBufs_eq, arrays_eq, (dats m 0 c).arrAt_in 0 rfl _, (dats m 0 c).arrAt_in 1 rfl _, Wfin_main_v2,
    Wfin_of_ne m c main_v1 (by decide)]
  iintro ⟨H1, H2⟩
  ihave Hs := (pointsTo_share (PosShare.mem_left_op_right fullShare)).1 $$ H1
  icases Hs with ⟨Hl, Hr⟩
  isplitl [Hl]; · iexact Hl
  isplitl [Hr]; · iexact Hr
  iexact H2

/-- A buffer that bypasses the region is as the region found it. -/
theorem Wfin_rest (c : Dev nD) : ∀ b ∈ Pipeline.restRefs sig spec0, Wfin m c (Proc.devRef .tc b) = V0 m c (Proc.devRef .tc b) := by
  intro b hb
  refine Wfin_of_ne m c b fun e => ?_
  subst e
  exact (Finset.mem_sdiff.mp hb).2 (Finset.mem_image.mpr ⟨2, Finset.mem_univ _, rfl⟩)

/-! ## The run -/

set_option backward.isDefEq.respectTransparency.types false in
/-- Every weakly fair execution of @main terminates; at the end every window's array holds what the library computes
    from the proof data, and every other unscoped buffer what the two lines after the region make of the exit
    contents. -/
theorem run_main : θ_run defs (onTc (τ := τ) (main (F := F))) (s₀ m ρ)
    (fun r => ∀ c : Dev nD,
      (∀ w, r.2.mem ((spec0 w).arr.view.loc (c.tc : Thread nD τ)) = (dats m 0 c).arrAt w cfg0.N)
      ∧ ∀ b ∈ Pipeline.restRefs sig spec0,
          r.2.mem ((c.tc : Thread nD τ).loc b) = StableHlo.after (List.flatten [hostOps1]) (Wfin m c) (Proc.devRef .tc b)) :=
  Cert.SharedArrayTail.θ_run_frame_around_track_shared cfgs (dats m) (0 : Fin 1) cellOf_inj winFacts₀0 block_pos0 arr_whole0 stage_whole0
    defs₀ Variants.none m ρ main
    (hbody := fun c => (body_obligation m c).loose) (howed := fun _ _ => rfl)
    (V₀ := V0 m) (Wfin := Wfin m) (opss := [hostOps1]) (hsub := tail_sub) (hfresh := tail_fresh) (hkeep := tail_keeps)
    (hmain := hmain m Variants.none) (hrest := Wfin_rest m)
    (hsplit := split_entry m) (hjoin := join_exit m) (hback := split_exit m)
    (hin := fun _ => .rfl) (hout := fun _ => .rfl)

/-- No line after the region writes the argument: it ends as launched. -/
theorem W_main_arg0 (c : Dev nD) :
    StableHlo.after (List.flatten [hostOps1]) (Wfin m c) (Proc.devRef .tc main_arg0) = m ((c : Thread nD τ).loc main_arg0) := by
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Wfin_of_ne m c main_arg0 (by decide)]
  exact V_main_arg0 m c

/-- THE FRAME: every weakly fair execution of @main terminates, and the argument ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Pipeline.mem_restRefs_of main_arg0 (by decide) (by decide))).trans (W_main_arg0 m c))
    (run_main m ρ)

/-- The run with the result named: the final result is what the two lines after the region make of the exit contents,
    and the argument ends as launched. -/
theorem run_result : θ_run defs (onTc (τ := τ) (main (F := F))) ⟨m, fun _ => 0, ρ⟩ (fun r => ∀ c : Dev nD,
      r.2.mem ((c.tc : Thread nD τ).loc main_v4) = StableHlo.after (List.flatten [hostOps1]) (Wfin m c) (Proc.devRef .tc main_v4)
      ∧ r.2.mem ((c.tc : Thread nD τ).loc main_arg0) = m ((c.tc : Thread nD τ).loc main_arg0)) :=
  (θ_run defs _ _).mono (fun _ h c => ⟨(h c).2 main_v4 (Pipeline.mem_restRefs_of main_v4 (by decide) (by decide)),
      ((h c).2 main_arg0 (Pipeline.mem_restRefs_of main_arg0 (by decide) (by decide))).trans (W_main_arg0 m c)⟩)
    (run_main m ρ)

end Cert.KernelIdeal.Region

end
-- ==== Proof.LibAxisReads.lean ====
/-
  Reductions along ONE axis and rank-three layout steps, each read at an index given by its coordinates.

  A sum (or a maximum) along one axis of an array, read at a reduced index, ranges over the coordinates of the
  reduced axis with the other coordinates held: along the columns of a matrix [a, b] at row r it is over
  (r, k); along the middle axis of [a, b, c] at (p, q) over (p, k, q); along the last axis at (p, q)
  over (p, q, k). A maximum is the fold of max from the accumulator's value, in any order.

  A stack of m matrices [m, a, b] and the tall matrix [m * a, b] of their rows hold the same entries in the
  same row-major order: row p * a + q of the tall matrix is row q of matrix p. Inserting a unit axis moves
  nothing. A broadcast along an axis of extent one repeats the operand along it: the result at (p, q, r) reads
  the operand with 0 on each of its unit axes. General in the extents and in the element type.
-/
import Idealize.ShloMosaic.Lib.Pipeline.Value
import Idealize.ShloMosaic.Lib.ValueIdx
import Idealize.ShloMosaic.PureOps.Ideal.Laws

namespace Cert.AxisReads

open Idealize.ShloMosaic Idealize.ShloMosaic.ValueIdx

variable {α : Type}

/-! ## The reduced index with the coordinate put back -/

theorem lift_cols {a b : ℕ} (h : (⟨2, ![a, b]⟩ : Shape).Reduces [1] ⟨1, ![a]⟩) (r : Fin a)
    (k : Fin ((⟨2, ![a, b]⟩ : Shape).size 1)) : h.lift (ix1 r) k = ix2 r (⟨k.val, k.isLt⟩ : Fin b) := by
  funext c; apply Fin.ext
  fin_cases c <;> rfl

theorem lift_mid {a b c : ℕ} (h : (⟨3, ![a, b, c]⟩ : Shape).Reduces [1] ⟨2, ![a, c]⟩) (p : Fin a) (q : Fin c)
    (k : Fin ((⟨3, ![a, b, c]⟩ : Shape).size 1)) : h.lift (ix2 p q) k = ix3 p (⟨k.val, k.isLt⟩ : Fin b) q := by
  funext d; apply Fin.ext
  fin_cases d <;> rfl

theorem lift_last {a b c : ℕ} (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-! ## Sums along one axis (a kernel's f32 lane or sublane sum from the zero accumulator) -/

/-- Along the columns of [a, b], at row r: the sum over k of the entries (r, k). -/
theorem sum_cols {a b : ℕ} (src : FVec Ideal ⟨2, ![a, b]⟩ .f32) (h : (⟨2, ![a, b]⟩ : Shape).Reduces [1] ⟨1, ![a]⟩) (r : Fin a) :
    multiReduction .add [1] ⟨1, ![a]⟩ src 0x00000000#32 h (.inl rfl) rfl (ix1 r) = ∑ k : Fin b, src (ix2 r k) :=
  (Ideal.multiReduction_add_single src 0x00000000#32 h (.inl rfl) rfl (ix1 r)).trans
    (Finset.sum_congr rfl fun k _ => congrArg src (lift_cols h r k))

/-- Along the middle axis of [a, b, c], at (p, q): the sum over k of the entries (p, k, q). -/
theorem sum_mid {a b c : ℕ} (src : FVec Ideal ⟨3, ![a, b, c]⟩ .f32) (h : (⟨3, ![a, b, c]⟩ : Shape).Reduces [1] ⟨2, ![a, c]⟩)
    (p : Fin a) (q : Fin c) :
    multiReduction .add [1] ⟨2, ![a, c]⟩ src 0x00000000#32 h (.inl rfl) rfl (ix2 p q) = ∑ k : Fin b, src (ix3 p k q) :=
  (Ideal.multiReduction_add_single src 0x00000000#32 h (.inl rfl) rfl (ix2 p q)).trans
    (Finset.sum_congr rfl fun k _ => congrArg src (lift_mid h p q k))

/-- Along the last axis of [a, b, c], at (p, q): the sum over k of the entries (p, q, k). -/
theorem sum_last {a b c : ℕ} (src : FVec Ideal ⟨3, ![a, b, c]⟩ .f32) (h : (⟨3, ![a, b, c]⟩ : Shape).Reduces [2] ⟨2, ![a, b]⟩)
    (p : Fin a) (q : Fin b) :
    multiReduction .add [2] ⟨2, ![a, b]⟩ src 0x00000000#32 h (.inl rfl) rfl (ix2 p q) = ∑ k : Fin c, src (ix3 p q k) :=
  (Ideal.multiReduction_add_single src 0x00000000#32 h (.inl rfl) rfl (ix2 p q)).trans
    (Finset.sum_congr rfl fun k _ => congrArg src (lift_last h p q k))

/-! ## Maxima along the columns, from the accumulator at minus infinity -/

/-- A kernel's row maximum of [a, b] at row r: the fold of max from the accumulator's value over the entries (r, k). -/
theorem max_cols {a b : ℕ} (src : FVec Ideal ⟨2, ![a, b]⟩ .f32) (h : (⟨2, ![a, b]⟩ : Shape).Reduces [1] ⟨1, ![a]⟩) (r : Fin a) :
    multiReduction .maximumf [1] ⟨1, ![a]⟩ src 0xFF800000#32 h (.inl rfl) rfl (ix1 r)
      = (Finset.univ : Finset (Fin b)).fold max (Ideal.ofBits .f32 0xFF800000#32) (fun k => src (ix2 r k)) :=
  (Ideal.multiReduction_maximumf_single src 0xFF800000#32 h (.inl rfl) rfl (ix1 r)).trans
    (congrArg ((Finset.univ : Finset (Fin b)).fold max (Ideal.ofBits .f32 0xFF800000#32))
      (funext fun k => congrArg src (lift_cols h r k)))

/-- The host's reduce with a maximum body along the columns of [a, b], at row r, from a rank-zero initial value. -/
theorem hostMax_cols {a b : ℕ} (x : FVec Ideal ⟨2, ![a, b]⟩ .f32) (init : FVec Ideal ⟨0, ![]⟩ .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduce FloatOps.maximumf x init h' hu (ix1 r)
      = (Finset.univ : Finset (Fin b)).fold max (init ix0) (fun k => x (ix2 r k)) := by
  rw [Host.reduce_eq_fold_single FloatOps.maximumf x init h' h hu (ix1 r)]
  have e0 : Shape.Idx.first hu = ix0 := funext fun d => d.elim0
  rw [e0]
  exact congrArg ((Finset.univ : Finset (Fin b)).fold max (init ix0)) (funext fun k => congrArg x (lift_cols h r k))

/-! ## A stack of matrices and the tall matrix of their rows -/

/-- The stack [m, a, b] cast to the tall matrix [n, b], n = m * a: row p * a + q is row q of matrix p. -/
theorem shapeCast_stack_tall_apply {m a b n : ℕ} (x : (⟨3, ![m, a, b]⟩ : Shape).Idx → α)
    (h : (⟨3, ![m, a, b]⟩ : Shape).ShapeCasts ⟨2, ![n, b]⟩) (r : Fin n) (p : Fin m) (q : Fin a) (d : Fin b)
    (hr : r.val = p.val * a + q.val) : shapeCast ⟨2, ![n, b]⟩ x h (ix2 r d) = x (ix3 p q d) :=
  shapeCast_apply x h _ _ (by
    rw [Shape.rowMajor_val_three, Shape.rowMajor_val_two]
    show (p.val * a + q.val) * b + d.val = r.val * b + d.val
    rw [hr])

/-- The tall matrix [n, b], n = m * a, cast to the stack [m, a, b]: row q of matrix p is row p * a + q. -/
theorem shapeCast_tall_stack_apply {m a b n : ℕ} (x : (⟨2, ![n, b]⟩ : Shape).Idx → α)
    (h : (⟨2, ![n, b]⟩ : Shape).ShapeCasts ⟨3, ![m, a, b]⟩) (r : Fin n) (p : Fin m) (q : Fin a) (d : Fin b)
    (hr : r.val = p.val * a + q.val) : shapeCast ⟨3, ![m, a, b]⟩ x h (ix3 p q d) = x (ix2 r d) :=
  shapeCast_apply x h _ _ (by
    rw [Shape.rowMajor_val_three, Shape.rowMajor_val_two]
    show r.val * b + d.val = (p.val * a + q.val) * b + d.val
    rw [hr])

/-! ## A unit axis inserted -/

/-- [a, b] cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- [a, b] cast to [a, b, 1] reads, at (i, j, u), the operand at (i, j). -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-! ## Broadcasts along unit axes of a rank-three array -/

/-- [a, 1, c] broadcast to [a, b, c] reads, at (p, q, r), the operand at (p, 0, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- [1, b, c] broadcast to [a, b, c] reads, at (p, q, r), the operand at (0, q, r). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- [a, b, 1] broadcast to [a, b, c] reads, at (p, q, r), the operand at (p, q, 0). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- [a, 1, 1] broadcast to [a, b, c] reads, at (p, q, r), the operand at (p, 0, 0). -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

end Cert.AxisReads
-- ==== Proof.SoftRankLaw.lean ====
/-
  The soft rank of one entry among the entries of its row, in the two spellings the programs use, and the law that
  joins them.

  For a value a and the 1024 values x n of its row, one program averages the logistic function of the scaled
  differences,

      (0 + sum over n of 1 / (1 + exp (-(1000 * (a - x n))))) / 1024,

  and the other adds hyperbolic tangents of the half-scaled differences, chunk of 256 after chunk of 256, and
  applies the affine map once:

      1/2 + ((((0 + S 0) + S 1) + S 2) + S 3) * (1/2048),   S c = sum over l < 256 of tanh ((a - x (256 c + l)) * 500).

  They agree at real values because tanh y = 2 / (1 + exp (-2 y)) - 1, so the tangents add up to twice the sum of
  the logistic terms less 1024, and the affine map takes that to the mean. The law needs the values to be real:
  at an infinite value the cancellation of the constant term has no meaning.
-/
import Idealize.ShloMosaic.PureOps.Ideal
import Mathlib.Tactic

noncomputable section

namespace Cert.SoftRank

open Idealize.ShloMosaic

/-! ## The float words the programs spell -/

theorem word_zero : Ideal.ofBits .f32 0x00000000#32 = 0 := by
  simp [Ideal.ofBits, Ideal.ieee]
theorem word_one : Ideal.ofBits .f32 0x3F800000#32 = 1 := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_500 : Ideal.ofBits .f32 0x43FA0000#32 = ((500 : ℝ) : EReal) := by
  simp [Ideal.ofBits, Ideal.ieee, -EReal.coe_mul]; norm_num
theorem word_1000 : Ideal.ofBits .f32 0x447A0000#32 = ((1000 : ℝ) : EReal) := by
  simp [Ideal.ofBits, Ideal.ieee, -EReal.coe_mul]; norm_num
theorem word_1024 : Ideal.ofBits .f32 0x44800000#32 = ((1024 : ℝ) : EReal) := by
  simp [Ideal.ofBits, Ideal.ieee, -EReal.coe_mul]; norm_num
theorem word_inv2048 : Ideal.ofBits .f32 0x3A000000#32 = ((1 / 2048 : ℝ) : EReal) := by
  simp [Ideal.ofBits, Ideal.ieee, -EReal.coe_mul]; norm_num

/-! ## The four chunks of a row -/

/-- Entry l of chunk 0, 1, 2, 3 of a row of 1024. -/
def chunk0 (l : Fin 256) : Fin 1024 := ⟨l.val, by have := l.isLt; omega⟩
def chunk1 (l : Fin 256) : Fin 1024 := ⟨256 + l.val, by have := l.isLt; omega⟩
def chunk2 (l : Fin 256) : Fin 1024 := ⟨512 + l.val, by have := l.isLt; omega⟩
def chunk3 (l : Fin 256) : Fin 1024 := ⟨768 + l.val, by have := l.isLt; omega⟩

/-- A sum over a row of 1024 is the sum of the sums over its four chunks of 256, in any commutative additive monoid. -/
theorem sum_four_chunks {M : Type} [AddCommMonoid M] (f : Fin 1024 → M) :
    ∑ n, f n = (((∑ l, f (chunk0 l)) + ∑ l, f (chunk1 l)) + ∑ l, f (chunk2 l)) + ∑ l, f (chunk3 l) := by
  let g : ℕ → M := fun n => if h : n < 1024 then f ⟨n, h⟩ else 0
  have hf : ∀ n : Fin 1024, f n = g n.val := fun n => by
    show f n = if h : n.val < 1024 then f ⟨n.val, h⟩ else 0
    rw [dif_pos n.isLt]
  have e0 : ∑ l, f (chunk0 l) = ∑ x ∈ Finset.range 256, g x := by
    rw [← Fin.sum_univ_eq_sum_range]; exact Finset.sum_congr rfl fun l _ => hf (chunk0 l)
  have e1 : ∑ l, f (chunk1 l) = ∑ x ∈ Finset.range 256, g (256 + x) := by
    rw [← Fin.sum_univ_eq_sum_range (fun x => g (256 + x))]; exact Finset.sum_congr rfl fun l _ => hf (chunk1 l)
  have e2 : ∑ l, f (chunk2 l) = ∑ x ∈ Finset.range 256, g (512 + x) := by
    rw [← Fin.sum_univ_eq_sum_range (fun x => g (512 + x))]; exact Finset.sum_congr rfl fun l _ => hf (chunk2 l)
  have e3 : ∑ l, f (chunk3 l) = ∑ x ∈ Finset.range 256, g (768 + x) := by
    rw [← Fin.sum_univ_eq_sum_range (fun x => g (768 + x))]; exact Finset.sum_congr rfl fun l _ => hf (chunk3 l)
  have ea : ∑ n, f n = ∑ x ∈ Finset.range 1024, g x := by
    rw [← Fin.sum_univ_eq_sum_range]; exact Finset.sum_congr rfl fun n _ => hf n
  rw [ea, e0, e1, e2, e3]
  have h3 : ∑ x ∈ Finset.range 1024, g x = ∑ x ∈ Finset.range 768, g x + ∑ x ∈ Finset.range 256, g (768 + x) :=
    Finset.sum_range_add g 768 256
  have h2 : ∑ x ∈ Finset.range 768, g x = ∑ x ∈ Finset.range 512, g x + ∑ x ∈ Finset.range 256, g (512 + x) :=
    Finset.sum_range_add g 512 256
  have h1 : ∑ x ∈ Finset.range 512, g x = ∑ x ∈ Finset.range 256, g x + ∑ x ∈ Finset.range 256, g (256 + x) :=
    Finset.sum_range_add g 256 256
  rw [h3, h2, h1]

/-! ## The two spellings -/

/-- The kernel's spelling: hyperbolic tangents of the half-scaled differences, added chunk after chunk from the zero
    word, scaled by 1/2048 and shifted by 1/2. -/
def tanhForm (a : EReal) (x : Fin 1024 → EReal) : EReal :=
  Ideal.ofBits .f32 0x3F000000#32
    + ((((Ideal.ofBits .f32 0x00000000#32
            + ∑ l : Fin 256, Ideal.tanh ((a - x (chunk0 l)) * Ideal.ofBits .f32 0x43FA0000#32))
          + ∑ l : Fin 256, Ideal.tanh ((a - x (chunk1 l)) * Ideal.ofBits .f32 0x43FA0000#32))
        + ∑ l : Fin 256, Ideal.tanh ((a - x (chunk2 l)) * Ideal.ofBits .f32 0x43FA0000#32))
      + ∑ l : Fin 256, Ideal.tanh ((a - x (chunk3 l)) * Ideal.ofBits .f32 0x43FA0000#32))
      * Ideal.ofBits .f32 0x3A000000#32

/-- The reference's spelling: the logistic function of the scaled differences, written out as the reference computes
    it, summed from the zero word and divided by 1024. -/
def logisticForm (a : EReal) (x : Fin 1024 → EReal) : EReal :=
  Ideal.div
    (Ideal.ofBits .f32 0x00000000#32
      + ∑ n : Fin 1024, Ideal.div (Ideal.ofBits .f32 0x3F800000#32)
          (Ideal.ofBits .f32 0x3F800000#32 + Ideal.exp (-(Ideal.ofBits .f32 0x447A0000#32 * (a - x n)))))
    (Ideal.ofBits .f32 0x44800000#32)

/-! ## The law, at real values -/

/-- tanh y = 2 / (1 + exp (-2 y)) - 1, at y = 500 d. -/
theorem tanh_eq_logistic (d : ℝ) : Real.tanh (d * 500) = 2 * (1 + Real.exp (-(1000 * d)))⁻¹ - 1 := by
  have h1 : Real.exp (-(1000 * d)) = (Real.exp (d * 500))⁻¹ * (Real.exp (d * 500))⁻¹ := by
    rw [← Real.exp_neg, ← Real.exp_add]; congr 1; ring
  rw [Real.tanh_eq_sinh_div_cosh, Real.sinh_eq, Real.cosh_eq, Real.exp_neg, h1]
  have hpos : 0 < Real.exp (d * 500) := Real.exp_pos _
  generalize Real.exp (d * 500) = E at hpos
  have hE : E ≠ 0 := ne_of_gt hpos
  have hE2 : 1 + E⁻¹ * E⁻¹ ≠ 0 := by positivity
  have hE3 : E + E⁻¹ ≠ 0 := by positivity
  field_simp
  ring

/-- A finite sum of reals read as an extended real is the sum of the terms read so. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- One term of the kernel's sums at real values. -/
theorem tanh_term (a b : ℝ) :
    Ideal.tanh (((a : EReal) - (b : EReal)) * Ideal.ofBits .f32 0x43FA0000#32) = ((Real.tanh ((a - b) * 500) : ℝ) : EReal) := by
  rw [word_500, ← EReal.coe_sub, ← EReal.coe_mul, Ideal.tanh_coe]

/-- One term of the reference's sum at real values. -/
theorem logistic_term (a b : ℝ) :
    Ideal.div (Ideal.ofBits .f32 0x3F800000#32)
        (Ideal.ofBits .f32 0x3F800000#32 + Ideal.exp (-(Ideal.ofBits .f32 0x447A0000#32 * ((a : EReal) - (b : EReal)))))
      = (((1 + Real.exp (-(1000 * (a - b))))⁻¹ : ℝ) : EReal) := by
  rw [word_one, word_1000, ← EReal.coe_sub, ← EReal.coe_mul]
  exact Ideal.logistic_coe (r := 1000 * (a - b))

/-- THE LAW: at real values the two spellings are one number. -/
theorem tanhForm_eq_logisticForm (a : ℝ) (x : Fin 1024 → ℝ) :
    tanhForm (a : EReal) (fun n => (x n : EReal)) = logisticForm (a : EReal) (fun n => (x n : EReal)) := by
  unfold tanhForm logisticForm
  simp only [tanh_term, logistic_term]
  rw [← coe_sum, ← coe_sum, ← coe_sum, ← coe_sum, ← coe_sum, word_zero, word_half, word_inv2048, word_1024, zero_add, zero_add,
    Ideal.div_coe (by norm_num : (1024 : ℝ) ≠ 0), ← EReal.coe_add, ← EReal.coe_add, ← EReal.coe_add, ← EReal.coe_mul,
    ← EReal.coe_add, ← EReal.coe_mul]
  congr 1
  have hs := sum_four_chunks (fun n => Real.tanh ((a - x n) * 500))
  rw [← hs]
  have ht : ∑ n : Fin 1024, Real.tanh ((a - x n) * 500)
      = 2 * ∑ n : Fin 1024, (1 + Real.exp (-(1000 * (a - x n))))⁻¹ - 1024 := by
    rw [Finset.mul_sum]
    have : ∀ n : Fin 1024, Real.tanh ((a - x n) * 500) = 2 * (1 + Real.exp (-(1000 * (a - x n))))⁻¹ - 1 :=
      fun n => tanh_eq_logistic (a - x n)
    rw [Finset.sum_congr rfl fun n _ => this n, Finset.sum_sub_distrib]
    simp
  rw [ht]
  ring

end Cert.SoftRank

end
-- ==== Proof.KernelIdealEntry.lean ====
/-
  The result block of the idealized kernel read at an entry.

  At row p and column q of the block, the body's one store holds the soft rank, in its hyperbolic-tangent spelling,
  of the query block's entry (p, q) among the 1024 entries of row p of the key block: each of the four chunk sums
  is a sum along the last axis of the [32, 256, 256] array of tangents, whose entry (p, q, l) reads the query at
  (p, q) and the key chunk at (p, l).
-/
import proofs.«107972_j63101659513440_2_alg».proof.Proof.KernelIdealRegion
import proofs.«107972_j63101659513440_2_alg».proof.Proof.LibAxisReads
import proofs.«107972_j63101659513440_2_alg».proof.Proof.SoftRankLaw
import Idealize.ShloMosaic.Lib.ValueIdx
import Idealize.ShloMosaic.Lib.Pipeline.Value
import Idealize.ShloMosaic.PureOps.Ideal.Laws

set_option maxRecDepth 16384

noncomputable section

namespace Cert.KernelIdeal.Entry

open Idealize.ShloMosaic Idealize.ShloMosaic.ValueIdx
open Cert.AxisReads Cert.SoftRank
open Cert.KernelIdeal Cert.KernelIdeal.Gen Cert.KernelIdeal.Region

/-- One chunk's sum at (p, q): over l, the tangent of the scaled difference of the query's entry (p, q) and the
    chunk's entry (p, l). -/
theorem chunk_sum (vq vk : FVec Ideal S32x256 .f32) (p : Fin 32) (q : Fin 256) :
    multiReduction .add [2] S32x256
        (tanh (mulf (subf (broadcastTo S32x256x256 (shapeCast S32x256x1 vq shapeCasts_S32x256_S32x256x1) broadcasts_S32x256x1_S32x256x256)
                          (broadcastTo S32x256x256 (shapeCast S32x1x256 vk shapeCasts_S32x256_S32x1x256) broadcasts_S32x1x256_S32x256x256))
                    (broadcast S32x256x256 (Scalar.ofBits (F := Ideal) .f32 0x43FA0000#32))))
        0x00000000#32 reduces_S32x256x256_S32x256 (.inl rfl) rfl (ix2 p q)
      = ∑ l : Fin 256, Ideal.tanh ((vq (ix2 p q) - vk (ix2 p l)) * Ideal.ofBits .f32 0x43FA0000#32) := by
  refine (sum_last _ reduces_S32x256x256_S32x256 p q).trans (Finset.sum_congr rfl fun l _ => ?_)
  show Ideal.tanh ((broadcastTo S32x256x256 (shapeCast S32x256x1 vq shapeCasts_S32x256_S32x256x1) broadcasts_S32x256x1_S32x256x256 (ix3 p q l)
      - broadcastTo S32x256x256 (shapeCast S32x1x256 vk shapeCasts_S32x256_S32x1x256) broadcasts_S32x1x256_S32x256x256 (ix3 p q l))
        * Ideal.ofBits .f32 0x43FA0000#32) = _
  rw [broadcastTo_ab1_abc_apply, broadcastTo_a1c_abc_apply, shapeCast_ab_ab1_apply, shapeCast_ab_a1b_apply]

/-- The key block's chunks read at an entry. -/
theorem key_chunk0 (x1 : Vec Ideal S32x1024 .f32) (p : Fin 32) (l : Fin 256) : View.ld x1 rk0 (ix2 p l) = x1 (ix2 p (chunk0 l)) :=
  congrArg x1 (funext fun a => Fin.ext (by
    match a with
    | ⟨0, _⟩ => show 0 + 1 * p.val = p.val; omega
    | ⟨1, _⟩ => show 0 + 1 * l.val = l.val; omega))
theorem key_chunk1 (x1 : Vec Ideal S32x1024 .f32) (p : Fin 32) (l : Fin 256) : View.ld x1 rk1 (ix2 p l) = x1 (ix2 p (chunk1 l)) :=
  congrArg x1 (funext fun a => Fin.ext (by
    match a with
    | ⟨0, _⟩ => show 0 + 1 * p.val = p.val; omega
    | ⟨1, _⟩ => show 256 + 1 * l.val = 256 + l.val; omega))
theorem key_chunk2 (x1 : Vec Ideal S32x1024 .f32) (p : Fin 32) (l : Fin 256) : View.ld x1 rk2 (ix2 p l) = x1 (ix2 p (chunk2 l)) :=
  congrArg x1 (funext fun a => Fin.ext (by
    match a with
    | ⟨0, _⟩ => show 0 + 1 * p.val = p.val; omega
    | ⟨1, _⟩ => show 512 + 1 * l.val = 512 + l.val; omega))
theorem key_chunk3 (x1 : Vec Ideal S32x1024 .f32) (p : Fin 32) (l : Fin 256) : View.ld x1 rk3 (ix2 p l) = x1 (ix2 p (chunk3 l)) :=
  congrArg x1 (funext fun a => Fin.ext (by
    match a with
    | ⟨0, _⟩ => show 0 + 1 * p.val = p.val; omega
    | ⟨1, _⟩ => show 768 + 1 * l.val = 768 + l.val; omega))

theorem zero_offsets : (![0, 0] : Fin 2 → Nat) = fun _ => 0 := funext fun a => by fin_cases a <;> rfl

/-- One chunk's sum at (p, q), the query's entry and the chunk's row named. -/
theorem chunk_sum_of (vq vk : FVec Ideal S32x256 .f32) (p : Fin 32) (q : Fin 256) (a : EReal) (row : Fin 256 → EReal)
    (ha : vq (ix2 p q) = a) (hr : ∀ l, vk (ix2 p l) = row l) :
    multiReduction .add [2] S32x256
        (tanh (mulf (subf (broadcastTo S32x256x256 (shapeCast S32x256x1 vq shapeCasts_S32x256_S32x256x1) broadcasts_S32x256x1_S32x256x256)
                          (broadcastTo S32x256x256 (shapeCast S32x1x256 vk shapeCasts_S32x256_S32x1x256) broadcasts_S32x1x256_S32x256x256))
                    (broadcast S32x256x256 (Scalar.ofBits (F := Ideal) .f32 0x43FA0000#32))))
        0x00000000#32 reduces_S32x256x256_S32x256 (.inl rfl) rfl (ix2 p q)
      = ∑ l : Fin 256, Ideal.tanh ((a - row l) * Ideal.ofBits .f32 0x43FA0000#32) :=
  (chunk_sum vq vk p q).trans (Finset.sum_congr rfl fun l _ => by rw [ha, hr l])

/-- THE RESULT BLOCK AT AN ENTRY: the soft rank, in the tangent spelling, of the query's entry among row p of the key
    block. -/
theorem resultBlock_apply (x0 : Vec Ideal S32x256 .f32) (x1 : Vec Ideal S32x1024 .f32) (p : Fin 32) (q : Fin 256) :
    resultBlock (F := Ideal) x0 x1 (ix2 p q) = tanhForm (x0 (ix2 p q)) (fun n => x1 (ix2 p n)) := by
  unfold resultBlock
  rw [View.canon_unit_zero zero_offsets]
  simp only [View.ld_unit_zero (S := S32x256) zero_offsets]
  have hq : k0_pay2 x0 (ix2 p q) = x0 (ix2 p q) := congrFun (shapeCast_self x0 _) _
  have h0 := chunk_sum_of (k0_pay2 x0) (shapeCast S32x256 (View.ld x1 rk0) shapeCasts_S32x256_S32x256) p q
    (x0 (ix2 p q)) (fun l => x1 (ix2 p (chunk0 l))) hq fun l => (congrFun (shapeCast_self _ _) _).trans (key_chunk0 x1 p l)
  have h1 := chunk_sum_of (k0_pay2 x0) (shapeCast S32x256 (View.ld x1 rk1) shapeCasts_S32x256_S32x256) p q
    (x0 (ix2 p q)) (fun l => x1 (ix2 p (chunk1 l))) hq fun l => (congrFun (shapeCast_self _ _) _).trans (key_chunk1 x1 p l)
  have h2 := chunk_sum_of (k0_pay2 x0) (shapeCast S32x256 (View.ld x1 rk2) shapeCasts_S32x256_S32x256) p q
    (x0 (ix2 p q)) (fun l => x1 (ix2 p (chunk2 l))) hq fun l => (congrFun (shapeCast_self _ _) _).trans (key_chunk2 x1 p l)
  have h3 := chunk_sum_of (k0_pay2 x0) (k0_pay4 (View.ld x1 rk3)) p q
    (x0 (ix2 p q)) (fun l => x1 (ix2 p (chunk3 l))) hq fun l => (congrFun (shapeCast_self _ _) _).trans (key_chunk3 x1 p l)
  exact congrArg (fun z => Ideal.ofBits .f32 0x3F000000#32 + z * Ideal.ofBits .f32 0x3A000000#32)
    (congrArg₂ (· + ·) (congrArg₂ (· + ·) (congrArg₂ (· + ·) (congrArg (Ideal.ofBits .f32 0x00000000#32 + ·) h0) h1) h2) h3)

end Cert.KernelIdeal.Entry

end
-- ==== Proof.KernelIdealArray.lean ====
/-
  The idealized kernel's result array, whole.

  Point (i, j) of the grid writes back the block of rows 32 i .. 32 i + 31 and columns 256 j .. 256 j + 255 of
  `main_v2`; the query block it reads is the same block of `main_v1`, and the key block the same rows of `main_v1`
  at all 1024 columns. So what every point writes is the block of ONE matrix: at (r, s) the soft rank, in the
  tangent spelling, of entry (r, s) of `main_v1` among row r. The 8 x 4 blocks tile the array, so it ends holding
  that matrix. Around the region the host lines lay the argument [16, 1024, 16] out as the rows (b, k) of
  `main_v1` and lay the result back: entry (b, j, k) of the final result is the soft rank of the argument's entry
  (b, j, k) among the entries (b, n, k).
-/
import proofs.«107972_j63101659513440_2_alg».proof.Proof.KernelIdealEntry

set_option maxRecDepth 16384

noncomputable section

namespace Cert.KernelIdeal.Array

open Idealize.ShloMosaic Idealize.ShloMosaic.TcCoe Idealize.ShloMosaic.ValueIdx
open Idealize.SL Idealize.SL.Sem
open Idealize.ShloMosaic.Pipeline (Dat Cfg Window)
open Cert.AxisReads Cert.SoftRank
open Cert.KernelIdeal Cert.KernelIdeal.Gen Cert.KernelIdeal.Region Cert.KernelIdeal.Entry

variable (m : (ℓ : Loc nD τ sig) → Buf (Elt Ideal) ℓ) (ρ : Dev nD → PrngReg)

/-- The soft rank, in the tangent spelling, of every entry of a matrix [256, 1024] among its row. -/
def rowRank (v : S256x1024.Idx → EReal) : S256x1024.Idx → EReal :=
  fun i => tanhForm (v i) (fun n => v (ix2 (⟨(i 0).val, (i 0).isLt⟩ : Fin 256) n))

/-- The printed index maps, decided over the grid: the query block and the result block move together; the key block
    moves with their row index and stays at column block 0. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 7 ∧ win0_2.index t (1 : Fin 2) ≤ 3 :=
  (by decide +kernel : ∀ t : Fin grid0.N, _)

/-- Every block of the result is some point's. -/
theorem idx_onto : ∀ (q0 : Fin 8) (q1 : Fin 4), ∃ t : Fin cfg0.N, win0_2.index t = ![q0.val, q1.val] :=
  (by decide +kernel : ∀ (q0 : Fin 8) (q1 : Fin 4), ∃ t : Fin grid0.N, win0_2.index t = ![q0.val, q1.val])

/-- WHAT POINT `t` WRITES BACK is block `t` of the row ranks of `main_v1` as the region finds it. -/
theorem flushed_eq (c : Dev nD) (t : Fin cfg0.N) :
    (dats (F := Ideal) m 0 c).flushed 2 t = ((cfg0.win 2).blk t).view.read (Elt Ideal) (rowRank (V m c main_v1)) := by
  show (cfg0.win 2).cut (grid0.coords t) ((dats m 0 c).after 2 t) = _
  rw [after_result]
  obtain ⟨e0, e1, e2, e3, e4, e5⟩ := idx_facts t
  funext j
  obtain ⟨p, q, rfl⟩ : ∃ (p : Fin 32) (q : Fin 256), j = ix2 p q := ⟨j 0, j 1, eq_ix2 j⟩
  show resultBlock (iblk m c 0 t) (iblk m c 1 t) (ix2 p q) = rowRank (V m c main_v1) (((cfg0.win 2).blk t).view.emb (ix2 p q))
  refine (resultBlock_apply _ _ p q).trans ?_
  have hq : iblk m c 0 t (ix2 p q) = V m c main_v1 (((cfg0.win 2).blk t).view.emb (ix2 p q)) := by
    show V m c main_v1 (((cfg0.win 0).blk t).view.emb (ix2 p q)) = _
    refine congrArg _ (funext fun a => Fin.ext ?_)
    match a with
    | ⟨0, _⟩ => show win0_0.index t (0 : Fin 2) * 32 + 1 * p.val = win0_2.index t (0 : Fin 2) * 32 + 1 * p.val; omega
    | ⟨1, _⟩ => show win0_0.index t (1 : Fin 2) * 256 + 1 * q.val = win0_2.index t (1 : Fin 2) * 256 + 1 * q.val; omega
  have hk : ∀ n : Fin 1024, iblk m c 1 t (ix2 p n)
      = V m c main_v1 (ix2 (⟨((((cfg0.win 2).blk t).view.emb (ix2 p q)) 0).val, ((((cfg0.win 2).blk t).view.emb (ix2 p q)) 0).isLt⟩ : Fin 256) n) := fun n => by
    show V m c main_v1 (((cfg0.win 1).blk t).view.emb (ix2 p n)) = _
    refine congrArg _ (funext fun a => Fin.ext ?_)
    match a with
    | ⟨0, _⟩ => show win0_1.index t (0 : Fin 2) * 32 + 1 * p.val = win0_2.index t (0 : Fin 2) * 32 + 1 * p.val; omega
    | ⟨1, _⟩ => show win0_1.index t (1 : Fin 2) * 1024 + 1 * n.val = n.val; omega
  exact congrArg₂ tanhForm hq (funext hk)

/-- An index of the array is in point `t`'s block iff each coordinate is in the block's range on its axis. -/
theorem mem_blk (t : Fin cfg0.N) (i : S256x1024.Idx) :
    i ∈ ((cfg0.win 2).blk t).view.set ↔ ∀ a : Fin 2, win0_2.index t a * S32x256.size a ≤ (i a).val ∧ (i a).val < win0_2.index t a * S32x256.size a + S32x256.size a := by
  show i ∈ ((View.whole main_v2).slice (win0_2.rect t)).set ↔ _
  rw [View.set_slice_whole, Rect.mem_set_unit]
  exact Iff.rfl

/-- The blocks tile the array: the block of (r, s) is the point with block index (r / 32, s / 256). -/
theorem cover (i : S256x1024.Idx) : ∃ t : Fin cfg0.N, (cfg0.win 2).flush t = true ∧ i ∈ ((cfg0.win 2).blk t).view.set := by
  have hi0 : (i 0).val < 256 := (i 0).isLt
  have hi1 : (i 1).val < 1024 := (i 1).isLt
  obtain ⟨t, ht⟩ := idx_onto ⟨(i 0).val / 32, by omega⟩ ⟨(i 1).val / 256, by omega⟩
  have q0 : win0_2.index t (0 : Fin 2) = (i 0).val / 32 := congrFun ht 0
  have q1 : win0_2.index t (1 : Fin 2) = (i 1).val / 256 := congrFun ht 1
  refine ⟨t, flush0_2 t, ?_⟩
  rw [mem_blk]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 256 ≤ (i 1).val ∧ (i 1).val < win0_2.index t (1 : Fin 2) * 256 + 256; omega

/-- THE RESULT ARRAY after the region: the row ranks of `main_v1`. -/
theorem final_v2 (c : Dev nD) : (dats (F := Ideal) m 0 c).arrAt 2 cfg0.N = rowRank (V m c main_v1) :=
  (dats m 0 c).arrAt_eq_of_cover 2 (rowRank (V m c main_v1)) (fun t _ => flushed_eq m c t) cover

/-! ## The host lines around the region -/

/-- `main_v1` as the region finds it: the argument transposed to [16, 16, 1024] and its rows stacked. -/
theorem V_main_v1 (c : Dev nD) : (V m c main_v1 : S256x1024.Idx → EReal)
    = shapeCast S256x1024 (transpose S16x16x1024 [0, 2, 1] (m ((c : Thread nD τ).loc main_arg0)) transposes_S16x1024x16_S16x16x1024_0_2_1)
        shapeCasts_S16x16x1024_S256x1024 := by
  show StableHlo.after hostOps0 (fun b => m (c, b)) (Proc.devRef .tc main_v1) = _
  after_results
  rfl

/-- The final result from the exit contents: `main_v2` cut back into [16, 16, 1024] and transposed. -/
theorem W_main_v4 (c : Dev nD) : (StableHlo.after (List.flatten [hostOps1]) (Wfin m c) (Proc.devRef .tc main_v4) : S16x1024x16.Idx → EReal)
    = transpose S16x1024x16 [0, 2, 1] (shapeCast S16x16x1024 ((dats (F := Ideal) m 0 c).arrAt 2 cfg0.N) shapeCasts_S256x1024_S16x16x1024)
        transposes_S16x16x1024_S16x1024x16_0_2_1 := by
  rw [← Wfin_main_v2]
  show StableHlo.after hostOps1 (Wfin m c) (Proc.devRef .tc main_v4) = _
  after_results
  rfl

/-- THE FINAL RESULT AT AN ENTRY: the soft rank, in the tangent spelling, of the argument's entry (b, j, k) among the
    entries (b, n, k). -/
theorem result_apply (c : Dev nD) (b : Fin 16) (j : Fin 1024) (k : Fin 16) :
    (StableHlo.after (List.flatten [hostOps1]) (Wfin m c) (Proc.devRef .tc main_v4) : S16x1024x16.Idx → EReal) (ix3 b j k)
      = tanhForm (m ((c : Thread nD τ).loc main_arg0) (ix3 b j k)) (fun n => m ((c : Thread nD τ).loc main_arg0) (ix3 b n k)) := by
  have hrow : (⟨b.val * 16 + k.val, by have := b.isLt; have := k.isLt; omega⟩ : Fin 256).val = b.val * 16 + k.val := rfl
  have hv1 : ∀ n : Fin 1024, V m c main_v1 (ix2 (⟨b.val * 16 + k.val, by have := b.isLt; have := k.isLt; omega⟩ : Fin 256) n)
      = m ((c : Thread nD τ).loc main_arg0) (ix3 b n k) := fun n => by
    rw [V_main_v1]
    refine (shapeCast_stack_tall_apply _ shapeCasts_S16x16x1024_S256x1024 _ b k n hrow).trans ?_
    exact transpose_apply [0, 2, 1] _ transposes_S16x1024x16_S16x16x1024_0_2_1 (ix3 b k n) (ix3 b n k)
      (fun a => by match a with | ⟨0, _⟩ => rfl | ⟨1, _⟩ => rfl | ⟨2, _⟩ => rfl)
  rw [W_main_v4, final_v2]
  refine (transpose_apply [0, 2, 1] _ transposes_S16x16x1024_S16x1024x16_0_2_1 (ix3 b j k) (ix3 b k j)
      (fun a => by match a with | ⟨0, _⟩ => rfl | ⟨1, _⟩ => rfl | ⟨2, _⟩ => rfl)).trans ?_
  refine (shapeCast_tall_stack_apply _ shapeCasts_S256x1024_S16x16x1024
    (⟨b.val * 16 + k.val, by have := b.isLt; have := k.isLt; omega⟩ : Fin 256) b k j hrow).trans ?_
  unfold rowRank
  exact congrArg₂ tanhForm (hv1 j) (funext hv1)

end Cert.KernelIdeal.Array

end
-- ==== Proof.ReferenceEntry.lean ====
/-
  The reference's result read at an entry.

  At (b, j, k) the reference's last stage is the soft rank, in its logistic spelling, of the argument's entry
  (b, j, k) among the 1024 entries (b, n, k) of its row: the two broadcasts put the entry (b, j, k) and the entry
  (b, n, k) side by side at (b, j, n, k), and the sum along the third axis ranges over n.
-/
import proofs.«107972_j63101659513440_2_alg».proof.Proof.Gen.ReferenceIdeal.Read
import proofs.«107972_j63101659513440_2_alg».proof.Proof.SoftRankLaw
import Idealize.ShloMosaic.Lib.ValueIdx

set_option maxRecDepth 16384

noncomputable section

namespace Cert.ReferenceIdeal.Entry

open Idealize.ShloMosaic Idealize.ShloMosaic.ValueIdx
open Cert.SoftRank
open Cert.ReferenceIdeal Cert.ReferenceIdeal.Read

/-- At (b, j, n, k) the first operand of the difference reads the argument's entry (b, j, k), -/
theorem idx_query (b : Fin 16) (j : Fin 1024) (k : Fin 16) (n : Fin 1024) :
    idx_main_v0 (idx_main_v2 (idx_main_v13 (ix3 b j k) n)) = ix3 b j k :=
  funext fun a => Fin.ext (by match a with | ⟨0, _⟩ => rfl | ⟨1, _⟩ => rfl | ⟨2, _⟩ => rfl)

/-- and the second its entry (b, n, k). -/
theorem idx_key (b : Fin 16) (j : Fin 1024) (k : Fin 16) (n : Fin 1024) :
    idx_main_v1 (idx_main_v3 (idx_main_v13 (ix3 b j k) n)) = ix3 b n k :=
  funext fun a => Fin.ext (by match a with | ⟨0, _⟩ => rfl | ⟨1, _⟩ => rfl | ⟨2, _⟩ => rfl)

/-- THE REFERENCE AT AN ENTRY: the soft rank, in the logistic spelling, of the entry among its row. -/
theorem reference_apply (x : (⟨S16x1024x16, .f32⟩ : BufTy).Contents (Elt Ideal)) (b : Fin 16) (j : Fin 1024) (k : Fin 16) :
    val_main_v15 (F := Ideal) x (ix3 b j k) = logisticForm (x (ix3 b j k)) (fun n => x (ix3 b n k)) := by
  rw [val_main_v15_apply, val_main_v13_apply, val_main_v14_apply, val_main_cst_3_apply, val_main_cst_2_apply]
  unfold logisticForm
  simp only [val_main_v12_apply, val_main_v11_apply, val_main_cst_1_apply, val_main_v10_apply, val_main_v9_apply,
    val_main_cst_0_apply, val_main_v8_apply, val_main_v7_apply, val_main_v6_apply, val_main_v5_apply, val_main_cst_apply,
    val_main_v4_apply, val_main_v2_apply, val_main_v3_apply, val_main_v0_apply, val_main_v1_apply, idx_query, idx_key,
    Ideal.hostDivf_def, Ideal.ofBits_def, Ideal.addf_def, Ideal.hostUnary_exp_def, Ideal.hostNegf_def, Ideal.negf_def,
    Ideal.mulf_def, Ideal.subf_def]

end Cert.ReferenceIdeal.Entry

end
-- ==== Proof.FiniteInputs.lean ====
/-
  The precondition read back: every entry of a finite input is a real number.

  The printed predicate compares the absolute value of every entry against plus infinity and reduces the comparisons
  by `and`; when the result is 1 every comparison is 1, and an extended real whose absolute value is below plus
  infinity is neither infinity.
-/
import proofs.«107972_j63101659513440_2_alg».proof.Pre_finite_inputs
import Idealize.ShloMosaic.Lib.ReduceAll
import Idealize.ShloMosaic.Lib.ValueIdx
import Idealize.ShloMosaic.Lib.Pipeline.Value
import Idealize.ShloMosaic.PureOps.Ideal

noncomputable section

namespace Cert.Finite

open Idealize.ShloMosaic

/-- An extended real whose absolute value compares below the word of plus infinity is a real. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

instance : Subsingleton Cert.Pre_finite_inputs.S_.Idx := ⟨fun a b => funext fun d => d.elim0⟩

/-- Under the precondition every entry of the argument is a real. -/
theorem real_of_pre [Cert.Pre_finite_inputs.Facts] (x : FVec Ideal Cert.Pre_finite_inputs.S16x1024x16 .f32)
    (h : Cert.Pre_finite_inputs.fn (F := Ideal) x = fun _ => 1#1) (i : Cert.Pre_finite_inputs.S16x1024x16.Idx) :
    ∃ r : ℝ, x i = (r : EReal) := by
  have h0 := congrFun h ValueIdx.ix0
  dsimp only [Cert.Pre_finite_inputs.fn] at h0
  have hi := Host.reduce_andi_all _ _ _ _ _ h0 i
  have hb : broadcastInDim Cert.Pre_finite_inputs.S16x1024x16 ![] Cert.Pre_finite_inputs.Facts.bcast_S_S16x1024x16
      (constant (F := Ideal) Cert.Pre_finite_inputs.S_ .f32 0x7F800000#32) i = Ideal.ofBits .f32 0x7F800000#32 :=
    broadcastInDim_apply _ _ _ i (fun a => a.elim0) (fun a => a.elim0)
  refine real_of_abs_lt_top (x i) ?_
  rw [← hb]
  exact hi

end Cert.Finite

end
-- ==== Proof.lean ====
/-
  The kernel computes the soft rank of every entry of the argument [16, 1024, 16] among the 1024 entries of its
  row (the entries (b, n, k), n varying): out (b, j, k) = (1/1024) * sum over n of logistic (1000 * (x (b, j, k) - x (b, n, k))).

  The reference spells it so. The kernel lays the argument out as 256 rows of 1024, lets each grid point take a
  block of 32 rows by 256 columns with the whole 32 rows by 1024 columns of the same matrix beside it, adds
  hyperbolic tangents of the half-scaled differences chunk by chunk, and applies the affine map
  1/2 + (1/2048) * (.) once. Since tanh y = 2 logistic (2 y) - 1, the two agree wherever the entries are real
  numbers, which the precondition says they are.

  The three frames: the word-level kernel's and the idealized kernel's are the run of one region whose two input
  windows share an array, between two host lines before and two after; the reference's is its run with the result
  dropped. The ideal pass rewrote nothing, so there is nothing to preserve.
-/
import proofs.«107972_j63101659513440_2_alg».proof.Defs
import proofs.«107972_j63101659513440_2_alg».proof.Proof.Gen.Kernel
import proofs.«107972_j63101659513440_2_alg».proof.Proof.Gen.KernelIdeal
import proofs.«107972_j63101659513440_2_alg».proof.Proof.Gen.ReferenceIdeal
import proofs.«107972_j63101659513440_2_alg».proof.Proof.Gen.Pre_finite_inputs
import proofs.«107972_j63101659513440_2_alg».proof.Proof.Gen.ReferenceIdeal.Run
import proofs.«107972_j63101659513440_2_alg».proof.Proof.KernelRegion
import proofs.«107972_j63101659513440_2_alg».proof.Proof.KernelIdealArray
import proofs.«107972_j63101659513440_2_alg».proof.Proof.ReferenceEntry
import proofs.«107972_j63101659513440_2_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs and leaves its argument as launched. -/
theorem frame_kernel : Cert.frame_Kernel := fun m ρ _ => Cert.Kernel.Region.frame m ρ

/-- The idealized kernel runs and leaves its argument as launched. -/
theorem frame_kernelIdeal : Cert.frame_KernelIdeal := fun m ρ _ => Cert.KernelIdeal.Region.frame m ρ

/-- The reference runs and leaves its argument as launched: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At real entries the kernel's result and the reference's are one array: entry (b, j, k) of either is the soft
    rank of the argument's entry (b, j, k) among the entries (b, n, k), in the tangent spelling and in the logistic
    spelling, which agree at real values. -/
theorem algebraic : Cert.algebraic_KernelIdeal_ReferenceIdeal := by
  intro m ρ m' ρ' hpre hagree
  refine ⟨fun c => StableHlo.after (List.flatten [Cert.KernelIdeal.Gen.hostOps1]) (Cert.KernelIdeal.Region.Wfin m c)
      (Proc.devRef .tc Cert.KernelIdeal.main_v4), Cert.KernelIdeal.Region.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, hagree c]
  funext i
  obtain ⟨b, j, k, rfl⟩ : ∃ (b : Fin 16) (j : Fin 1024) (k : Fin 16), i = ix3 b j k := ⟨i 0, i 1, i 2, eq_ix3 i⟩
  refine (Cert.ReferenceIdeal.Entry.reference_apply _ b j k).trans ?_
  refine Eq.trans ?_ (Cert.KernelIdeal.Array.result_apply m c b j k).symm
  obtain ⟨a, ha⟩ := Cert.Finite.real_of_pre _ (hpre c) (ix3 b j k)
  choose xs hxs using fun n : Fin 1024 => Cert.Finite.real_of_pre _ (hpre c) (ix3 b n k)
  rw [ha, show (fun n => m ((c.tc : Thread Cert.KernelIdeal.nD Cert.KernelIdeal.τ).loc Cert.KernelIdeal.main_arg0) (ix3 b n k))
      = fun n => ((xs n : ℝ) : EReal) from funext hxs]
  exact (Cert.SoftRank.tanhForm_eq_logisticForm a xs).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
